-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x512 : Shape := ⟨4, ![32, 64, 64, 512]⟩
abbrev S_ : Shape := ⟨0, ![]⟩

class Facts : Prop where
  bcast_S_S32x64x64x512 : S_.BroadcastsInDim S32x64x64x512 (![] : Fin 0 → Fin S32x64x64x512.rank)
  reducesTo_S32x64x64x512_S_d0_1_2_3 : S32x64x64x512.ReducesTo [0, 1, 2, 3] S_
  h_S_ : 0 < S_.numel

variable [Facts]

def fn {F : FTy → Type} [FloatOps F] (main_arg0 : FVec F S32x64x64x512 .f32) : IVec S_ 1 :=
  let main_v0 : FVec F S32x64x64x512 .f32 := Host.absf main_arg0
  let main_cst : FVec F S_ .f32 := constant S_ .f32 0x7F800000#32
  let main_v1 : FVec F S32x64x64x512 .f32 := broadcastInDim S32x64x64x512 ![] bcast_S_S32x64x64x512 main_cst
  let main_v2 : IVec S32x64x64x512 1 := cmpf .olt main_v0 main_v1
  let main_c : IVec S_ 1 := constantI S_ 1 1#1
  let main_v3 : IVec S_ 1 := (fun x v => Host.reduce IntOp.andi x v reducesTo_S32x64x64x512_S_d0_1_2_3 h_S_) main_v2 main_c
  main_v3
-- ==== Kernel.lean ====
abbrev S32x64x64x512 : Shape := ⟨4, ![32, 64, 64, 512]⟩
abbrev S32x1x1x10752 : Shape := ⟨4, ![32, 1, 1, 10752]⟩
abbrev S2x64x64x512 : Shape := ⟨4, ![2, 64, 64, 512]⟩
abbrev S2x1x1x10752 : Shape := ⟨4, ![2, 1, 1, 10752]⟩
abbrev S2x16x64x512 : Shape := ⟨4, ![2, 16, 64, 512]⟩
abbrev S2x64x512 : Shape := ⟨3, ![2, 64, 512]⟩
abbrev S2x16x512 : Shape := ⟨3, ![2, 16, 512]⟩
abbrev S2x512 : Shape := ⟨2, ![2, 512]⟩
abbrev S2x1x1x512 : Shape := ⟨4, ![2, 1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S32x64x64x512, .f32⟩
  | .hbm, ⟨1, _⟩ => ⟨S32x1x1x10752, .f32⟩
  | .local _ .vmem, ⟨0, _⟩ => ⟨S2x64x64x512, .f32⟩
  | .local _ .vmem, ⟨1, _⟩ => ⟨S2x64x64x512, .f32⟩
  | .local _ .vmem, ⟨2, _⟩ => ⟨S2x1x1x10752, .f32⟩
  | .local _ .vmem, ⟨3, _⟩ => ⟨S2x1x1x10752, .f32⟩
  | _, _ => ⟨S32x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1x10752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x64x64x512_S2x16x64x512_0_0_0_0 : ∀ a, (![0, 0, 0, 0] : Fin 4 → Nat) a + S2x16x64x512.size a ≤ S2x64x64x512.size a
  h_S2x16x64x512 : 0 < S2x16x64x512.numel
  reduces_S2x16x64x512_S2x64x512 : S2x16x64x512.Reduces [1] S2x64x512
  slices_S2x64x512_o0_0_0_S2x16x512 : S2x64x512.Slices ![0, 0, 0] S2x16x512
  reduces_S2x16x512_S2x512 : S2x16x512.Reduces [1] S2x512
  slices_S2x64x512_o0_16_0_S2x16x512 : S2x64x512.Slices ![0, 16, 0] S2x16x512
  slices_S2x64x512_o0_32_0_S2x16x512 : S2x64x512.Slices ![0, 32, 0] S2x16x512
  slices_S2x64x512_o0_48_0_S2x16x512 : S2x64x512.Slices ![0, 48, 0] S2x16x512
  inb_S2x64x64x512_S2x16x64x512_0_16_0_0 : ∀ a, (![0, 16, 0, 0] : Fin 4 → Nat) a + S2x16x64x512.size a ≤ S2x64x64x512.size a
  inb_S2x64x64x512_S2x16x64x512_0_32_0_0 : ∀ a, (![0, 32, 0, 0] : Fin 4 → Nat) a + S2x16x64x512.size a ≤ S2x64x64x512.size a
  inb_S2x64x64x512_S2x16x64x512_0_48_0_0 : ∀ a, (![0, 48, 0, 0] : Fin 4 → Nat) a + S2x16x64x512.size a ≤ S2x64x64x512.size a
  inb_S2x1x1x10752_S2x1x1x512_0_0_0_0 : ∀ a, (![0, 0, 0, 0] : Fin 4 → Nat) a + S2x1x1x512.size a ≤ S2x1x1x10752.size a
  h_S2x1x1x512 : 0 < S2x1x1x512.numel
  shapeCasts_S2x1x1x512_S2x512 : S2x1x1x512.ShapeCasts S2x512
  shapeCasts_S2x512_S2x1x1x512 : S2x512.ShapeCasts S2x1x1x512
  inb_S2x1x1x10752_S2x1x1x512_0_0_0_512 : ∀ a, (![0, 0, 0, 512] : Fin 4 → Nat) a + S2x1x1x512.size a ≤ S2x1x1x10752.size a
  inb_S2x1x1x10752_S2x1x1x512_0_0_0_1024 : ∀ a, (![0, 0, 0, 1024] : Fin 4 → Nat) a + S2x1x1x512.size a ≤ S2x1x1x10752.size a
  inb_S2x1x1x10752_S2x1x1x512_0_0_0_1536 : ∀ a, (![0, 0, 0, 1536] : Fin 4 → Nat) a + S2x1x1x512.size a ≤ S2x1x1x10752.size a
  inb_S2x1x1x10752_S2x1x1x512_0_0_0_2048 : ∀ a, (![0, 0, 0, 2048] : Fin 4 → Nat) a + S2x1x1x512.size a ≤ S2x1x1x10752.size a
  inb_S2x1x1x10752_S2x1x1x512_0_0_0_2560 : ∀ a, (![0, 0, 0, 2560] : Fin 4 → Nat) a + S2x1x1x512.size a ≤ S2x1x1x10752.size a
  inb_S2x1x1x10752_S2x1x1x512_0_0_0_3072 : ∀ a, (![0, 0, 0, 3072] : Fin 4 → Nat) a + S2x1x1x512.size a ≤ S2x1x1x10752.size a
  inb_S2x1x1x10752_S2x1x1x512_0_0_0_3584 : ∀ a, (![0, 0, 0, 3584] : Fin 4 → Nat) a + S2x1x1x512.size a ≤ S2x1x1x10752.size a
  inb_S2x1x1x10752_S2x1x1x512_0_0_0_4096 : ∀ a, (![0, 0, 0, 4096] : Fin 4 → Nat) a + S2x1x1x512.size a ≤ S2x1x1x10752.size a
  inb_S2x1x1x10752_S2x1x1x512_0_0_0_4608 : ∀ a, (![0, 0, 0, 4608] : Fin 4 → Nat) a + S2x1x1x512.size a ≤ S2x1x1x10752.size a
  inb_S2x1x1x10752_S2x1x1x512_0_0_0_5120 : ∀ a, (![0, 0, 0, 5120] : Fin 4 → Nat) a + S2x1x1x512.size a ≤ S2x1x1x10752.size a
  inb_S2x1x1x10752_S2x1x1x512_0_0_0_5632 : ∀ a, (![0, 0, 0, 5632] : Fin 4 → Nat) a + S2x1x1x512.size a ≤ S2x1x1x10752.size a
  inb_S2x1x1x10752_S2x1x1x512_0_0_0_6144 : ∀ a, (![0, 0, 0, 6144] : Fin 4 → Nat) a + S2x1x1x512.size a ≤ S2x1x1x10752.size a
  inb_S2x1x1x10752_S2x1x1x512_0_0_0_6656 : ∀ a, (![0, 0, 0, 6656] : Fin 4 → Nat) a + S2x1x1x512.size a ≤ S2x1x1x10752.size a
  inb_S2x1x1x10752_S2x1x1x512_0_0_0_7168 : ∀ a, (![0, 0, 0, 7168] : Fin 4 → Nat) a + S2x1x1x512.size a ≤ S2x1x1x10752.size a
  inb_S2x1x1x10752_S2x1x1x512_0_0_0_7680 : ∀ a, (![0, 0, 0, 7680] : Fin 4 → Nat) a + S2x1x1x512.size a ≤ S2x1x1x10752.size a
  inb_S2x1x1x10752_S2x1x1x512_0_0_0_8192 : ∀ a, (![0, 0, 0, 8192] : Fin 4 → Nat) a + S2x1x1x512.size a ≤ S2x1x1x10752.size a
  inb_S2x1x1x10752_S2x1x1x512_0_0_0_8704 : ∀ a, (![0, 0, 0, 8704] : Fin 4 → Nat) a + S2x1x1x512.size a ≤ S2x1x1x10752.size a
  inb_S2x1x1x10752_S2x1x1x512_0_0_0_9216 : ∀ a, (![0, 0, 0, 9216] : Fin 4 → Nat) a + S2x1x1x512.size a ≤ S2x1x1x10752.size a
  inb_S2x1x1x10752_S2x1x1x512_0_0_0_9728 : ∀ a, (![0, 0, 0, 9728] : Fin 4 → Nat) a + S2x1x1x512.size a ≤ S2x1x1x10752.size a
  inb_S2x1x1x10752_S2x1x1x512_0_0_0_10240 : ∀ a, (![0, 0, 0, 10240] : Fin 4 → Nat) a + S2x1x1x512.size a ≤ S2x1x1x10752.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x512.size a ≤ S32x64x64x512.size a
  hwx0_0 : ∀ i : grid0.Coords, EltTy.bits .f32 = 32 ∨ (Rect.block (s := S32x64x64x512) S2x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1x10752.size a ≤ S32x1x1x10752.size a
  hwx0_1 : ∀ i : grid0.Coords, EltTy.bits .f32 = 32 ∨ (Rect.block (s := S32x1x1x10752) S2x1x1x10752.size (cc0_transform_1 i) (hinb0_1 i)).WholeWords (EltTy.packing .f32)

variable [Facts₀]

abbrev win0_0 : Pipeline.Window sig grid0 :=
  Pipeline.Window.ofSpec (Memref.whole main_arg0) S2x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x1x10752.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x512 : Shape := ⟨4, ![32, 64, 64, 512]⟩
abbrev S32x1x64x1x64x512 : Shape := ⟨6, ![32, 1, 64, 1, 64, 512]⟩
abbrev S_ : Shape := ⟨0, ![]⟩
abbrev S32x1x1x512 : Shape := ⟨4, ![32, 1, 1, 512]⟩
abbrev S32x512 : Shape := ⟨2, ![32, 512]⟩
abbrev S32x2x32x2x32x512 : Shape := ⟨6, ![32, 2, 32, 2, 32, 512]⟩
abbrev S32x2x2x512 : Shape := ⟨4, ![32, 2, 2, 512]⟩
abbrev S32x2048 : Shape := ⟨2, ![32, 2048]⟩
abbrev S32x4x16x4x16x512 : Shape := ⟨6, ![32, 4, 16, 4, 16, 512]⟩
abbrev S32x4x4x512 : Shape := ⟨4, ![32, 4, 4, 512]⟩
abbrev S32x8192 : Shape := ⟨2, ![32, 8192]⟩
abbrev S32x10752 : Shape := ⟨2, ![32, 10752]⟩
abbrev S32x1x1x10752 : Shape := ⟨4, ![32, 1, 1, 10752]⟩

abbrev nBuf : Space → Nat
  | .hbm => 24
  | .vmem => 0
  | .smem => 0
  | _ => 0

abbrev bufTy : (tb : Table) → Fin (tcTables nBuf tb) → BufTy
  | .hbm, ⟨0, _⟩ => ⟨S32x64x64x512, .f32⟩
  | .hbm, ⟨1, _⟩ => ⟨S32x1x64x1x64x512, .f32⟩
  | .hbm, ⟨2, _⟩ => ⟨S_, .f32⟩
  | .hbm, ⟨3, _⟩ => ⟨S32x1x1x512, .f32⟩
  | .hbm, ⟨4, _⟩ => ⟨S_, .f32⟩
  | .hbm, ⟨5, _⟩ => ⟨S32x1x1x512, .f32⟩
  | .hbm, ⟨6, _⟩ => ⟨S32x1x1x512, .f32⟩
  | .hbm, ⟨7, _⟩ => ⟨S32x512, .f32⟩
  | .hbm, ⟨8, _⟩ => ⟨S32x2x32x2x32x512, .f32⟩
  | .hbm, ⟨9, _⟩ => ⟨S_, .f32⟩
  | .hbm, ⟨10, _⟩ => ⟨S32x2x2x512, .f32⟩
  | .hbm, ⟨11, _⟩ => ⟨S_, .f32⟩
  | .hbm, ⟨12, _⟩ => ⟨S32x2x2x512, .f32⟩
  | .hbm, ⟨13, _⟩ => ⟨S32x2x2x512, .f32⟩
  | .hbm, ⟨14, _⟩ => ⟨S32x2048, .f32⟩
  | .hbm, ⟨15, _⟩ => ⟨S32x4x16x4x16x512, .f32⟩
  | .hbm, ⟨16, _⟩ => ⟨S_, .f32⟩
  | .hbm, ⟨17, _⟩ => ⟨S32x4x4x512, .f32⟩
  | .hbm, ⟨18, _⟩ => ⟨S_, .f32⟩
  | .hbm, ⟨19, _⟩ => ⟨S32x4x4x512, .f32⟩
  | .hbm, ⟨20, _⟩ => ⟨S32x4x4x512, .f32⟩
  | .hbm, ⟨21, _⟩ => ⟨S32x8192, .f32⟩
  | .hbm, ⟨22, _⟩ => ⟨S32x10752, .f32⟩
  | .hbm, ⟨23, _⟩ => ⟨S32x1x1x10752, .f32⟩
  | _, _ => ⟨S32x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S32x64x64x512_S32x1x64x1x64x512 : S32x64x64x512.ShapeCasts S32x1x64x1x64x512
  reducesTo_S32x1x64x1x64x512_S32x1x1x512_d2_4 : S32x1x64x1x64x512.ReducesTo [2, 4] S32x1x1x512
  h_S_ : 0 < S_.numel
  bcast_S_S32x1x1x512 : S_.BroadcastsInDim S32x1x1x512 (![] : Fin 0 → Fin S32x1x1x512.rank)
  shapeCasts_S32x1x1x512_S32x512 : S32x1x1x512.ShapeCasts S32x512
  shapeCasts_S32x64x64x512_S32x2x32x2x32x512 : S32x64x64x512.ShapeCasts S32x2x32x2x32x512
  reducesTo_S32x2x32x2x32x512_S32x2x2x512_d2_4 : S32x2x32x2x32x512.ReducesTo [2, 4] S32x2x2x512
  bcast_S_S32x2x2x512 : S_.BroadcastsInDim S32x2x2x512 (![] : Fin 0 → Fin S32x2x2x512.rank)
  shapeCasts_S32x2x2x512_S32x2048 : S32x2x2x512.ShapeCasts S32x2048
  shapeCasts_S32x64x64x512_S32x4x16x4x16x512 : S32x64x64x512.ShapeCasts S32x4x16x4x16x512
  reducesTo_S32x4x16x4x16x512_S32x4x4x512_d2_4 : S32x4x16x4x16x512.ReducesTo [2, 4] S32x4x4x512
  bcast_S_S32x4x4x512 : S_.BroadcastsInDim S32x4x4x512 (![] : Fin 0 → Fin S32x4x4x512.rank)
  shapeCasts_S32x4x4x512_S32x8192 : S32x4x4x512.ShapeCasts S32x8192
  concatenates_S32x512_S32x2048_S32x8192_S32x10752_d1 : Shape.Concatenates [S32x512, S32x2048, S32x8192] S32x10752 1
  bcast_S32x10752_S32x1x1x10752_0_3 : S32x10752.BroadcastsInDim S32x1x1x10752 (![0, 3] : Fin 2 → Fin S32x1x1x10752.rank)

variable [Facts₀]

class Facts : Prop extends Facts₀ where

variable [Facts]
-- ==== Proof.Pyramid.lean ====
/-
  Spatial pyramid pooling of an array `x : [B, 64, 64, 512]` (batch, row, column, channel) at the three levels
  1, 2 and 4, as ONE function of `x`.

  Level `s` cuts the 64 × 64 image into an `s × s` grid of square windows of side `n = 64 / s` and takes the mean of
  each window, channel by channel.  The result `[B, 1, 1, 10752]` lays the `1 + 4 + 16 = 21` window means of a batch
  entry side by side along the last axis, 512 channels each: lane `l < 512` is the whole image's mean in channel
  `l`; lane `512 + (2p + q)·512 + c` is the mean of window `(p, q)` of the 2 × 2 grid in channel `c`; lane
  `2560 + (4i + j)·512 + c` is the mean of window `(i, j)` of the 4 × 4 grid in channel `c`.

  A mean is written here as the window's sum times the exact reciprocal of its size (1/4096, 1/1024, 1/256: powers of
  two).  The one algebraic law of this file: a window of side `2n` is the disjoint union of four windows of side
  `n`, and the whole image of sixteen windows of side 16, so its sum is the sum of theirs.  That is a regrouping of a
  finite sum — commutativity and associativity of `+` alone — and holds for every extended-real entry, finite or not.
-/
import Idealize.ShloMosaic.PureOps.Ideal
import Idealize.ShloMosaic.Lib.ValueIdx

noncomputable section

namespace Cert.Pyramid

open Idealize.ShloMosaic Idealize.ShloMosaic.ValueIdx
open scoped BigOperators

/-! ## Sums cut into equal blocks -/

/-- A sum over `a · n` consecutive naturals is the sum, over the `a` blocks of length `n`, of each block's sum. -/
theorem sum_split {M : Type} [AddCommMonoid M] (a n N : ℕ) (hN : N = a * n) (F : ℕ → M) :
    ∑ k : Fin N, F k.val = ∑ i ∈ Finset.range a, ∑ r : Fin n, F (i * n + r.val) := by
  subst hN
  rw [← Fin.sum_univ_eq_sum_range (fun i => ∑ r : Fin n, F (i * n + r.val)) a,
    ← Equiv.sum_comp finProdFinEquiv (fun k : Fin (a * n) => F k.val), Fintype.sum_prod_type]
  refine Finset.sum_congr rfl fun i _ => Finset.sum_congr rfl fun r _ => ?_
  refine congrArg F ?_
  rw [finProdFinEquiv_apply_val, Nat.mul_comm, Nat.add_comm]

/-- The same on a square: a double sum over `(a · n)²` pairs is the sum over the `a²` square blocks of side `n`. -/
theorem sum_split_square {M : Type} [AddCommMonoid M] (a n N : ℕ) (hN : N = a * n) (F : ℕ → ℕ → M) :
    ∑ h : Fin N, ∑ w : Fin N, F h.val w.val
      = ∑ i ∈ Finset.range a, ∑ j ∈ Finset.range a, ∑ h : Fin n, ∑ w : Fin n, F (i * n + h.val) (j * n + w.val) := by
  rw [sum_split a n N hN (fun h => ∑ w : Fin N, F h w.val)]
  refine Finset.sum_congr rfl fun i _ => ?_
  refine Eq.trans (Finset.sum_congr rfl fun h _ => sum_split a n N hN (fun w => F (i * n + h.val) w)) ?_
  exact Finset.sum_comm

/-! ## The pooled value -/

/-- `x` read at natural-number coordinates (row `h`, column `w`, channel `c`) of batch entry `b`; outside the array
    the value is never used and is set to zero. -/
def entry {B : ℕ} (x : (⟨4, ![B, 64, 64, 512]⟩ : Shape).Idx → EReal) (b : Fin B) (h w c : ℕ) : EReal :=
  if hh : h < 64 then if hw : w < 64 then if hc : c < 512 then x (ix4 b ⟨h, hh⟩ ⟨w, hw⟩ ⟨c, hc⟩) else 0 else 0 else 0

/-- Inside the array it is the entry. -/
theorem entry_eq {B : ℕ} (x : (⟨4, ![B, 64, 64, 512]⟩ : Shape).Idx → EReal) (b : Fin B) (h w c : ℕ)
    (hh : h < 64) (hw : w < 64) (hc : c < 512) : entry x b h w c = x (ix4 b ⟨h, hh⟩ ⟨w, hw⟩ ⟨c, hc⟩) := by
  unfold entry; rw [dif_pos hh, dif_pos hw, dif_pos hc]

/-- The sum of `f` over the square window of side `n` whose corner is row `i · n`, column `j · n`, in channel `c`. -/
def win (f : ℕ → ℕ → ℕ → EReal) (n i j c : ℕ) : EReal :=
  ∑ h : Fin n, ∑ w : Fin n, f (i * n + h.val) (j * n + w.val) c

/-- A window of side 32 is four windows of side 16. -/
theorem win_32 (f : ℕ → ℕ → ℕ → EReal) (p q c : ℕ) :
    win f 32 p q c = win f 16 (2 * p) (2 * q) c + win f 16 (2 * p) (2 * q + 1) c
      + win f 16 (2 * p + 1) (2 * q) c + win f 16 (2 * p + 1) (2 * q + 1) c := by
  unfold win
  rw [sum_split_square 2 16 32 rfl (fun h w => f (p * 32 + h) (q * 32 + w) c)]
  simp only [Finset.sum_range_succ, Finset.sum_range_zero, zero_add]
  have e : ∀ (i j : ℕ) (h w : Fin 16),
      f (p * 32 + (i * 16 + h.val)) (q * 32 + (j * 16 + w.val)) c
        = f ((2 * p + i) * 16 + h.val) ((2 * q + j) * 16 + w.val) c := fun i j h w => by
    rw [show p * 32 + (i * 16 + h.val) = (2 * p + i) * 16 + h.val by omega,
      show q * 32 + (j * 16 + w.val) = (2 * q + j) * 16 + w.val by omega]
  simp only [e, Nat.add_zero]
  abel

/-- The whole image is sixteen windows of side 16, here added row of windows by row of windows. -/
theorem win_64 (f : ℕ → ℕ → ℕ → EReal) (c : ℕ) :
    win f 64 0 0 c
      = win f 16 0 0 c + win f 16 0 1 c + win f 16 0 2 c + win f 16 0 3 c
        + win f 16 1 0 c + win f 16 1 1 c + win f 16 1 2 c + win f 16 1 3 c
        + win f 16 2 0 c + win f 16 2 1 c + win f 16 2 2 c + win f 16 2 3 c
        + win f 16 3 0 c + win f 16 3 1 c + win f 16 3 2 c + win f 16 3 3 c := by
  unfold win
  rw [sum_split_square 4 16 64 rfl (fun h w => f (0 * 64 + h) (0 * 64 + w) c)]
  simp only [Finset.sum_range_succ, Finset.sum_range_zero, zero_add, Nat.zero_mul, Nat.zero_add]
  abel

/-- The pooled value at lane `l` of a batch entry whose image is `f`: the three levels side by side. -/
def pyr (f : ℕ → ℕ → ℕ → EReal) (l : ℕ) : EReal :=
  if l < 512 then win f 64 0 0 l * ((1 / 4096 : ℝ) : EReal)
  else if l < 2560 then win f 32 ((l - 512) / 1024) ((l - 512) / 512 % 2) (l % 512) * ((1 / 1024 : ℝ) : EReal)
  else win f 16 ((l - 2560) / 2048) ((l - 2560) / 512 % 4) (l % 512) * ((1 / 256 : ℝ) : EReal)

/-- Level 1: lane `c`. -/
theorem pyr_level1 (f : ℕ → ℕ → ℕ → EReal) (c : ℕ) (hc : c < 512) :
    pyr f c = win f 64 0 0 c * ((1 / 4096 : ℝ) : EReal) := by
  unfold pyr; rw [if_pos hc]

/-- Level 2: lane `512 + (2p + q)·512 + c`. -/
theorem pyr_level2 (f : ℕ → ℕ → ℕ → EReal) (p q c l : ℕ) (hp : p < 2) (hq : q < 2) (hc : c < 512)
    (hl : l = 512 + (2 * p + q) * 512 + c) : pyr f l = win f 32 p q c * ((1 / 1024 : ℝ) : EReal) := by
  subst hl
  unfold pyr
  rw [if_neg (by omega), if_pos (by omega),
    show (512 + (2 * p + q) * 512 + c - 512) / 1024 = p by omega,
    show (512 + (2 * p + q) * 512 + c - 512) / 512 % 2 = q by omega,
    show (512 + (2 * p + q) * 512 + c) % 512 = c by omega]

/-- Level 4: lane `2560 + (4i + j)·512 + c`. -/
theorem pyr_level4 (f : ℕ → ℕ → ℕ → EReal) (i j c l : ℕ) (hi : i < 4) (hj : j < 4) (hc : c < 512)
    (hl : l = 2560 + (4 * i + j) * 512 + c) : pyr f l = win f 16 i j c * ((1 / 256 : ℝ) : EReal) := by
  subst hl
  unfold pyr
  rw [if_neg (by omega), if_neg (by omega),
    show (2560 + (4 * i + j) * 512 + c - 2560) / 2048 = i by omega,
    show (2560 + (4 * i + j) * 512 + c - 2560) / 512 % 4 = j by omega,
    show (2560 + (4 * i + j) * 512 + c) % 512 = c by omega]

/-- The pooled array: at `(b, 0, 0, l)` the pooled value at lane `l` of batch entry `b`. -/
def pyramid (B : ℕ) (x : (⟨4, ![B, 64, 64, 512]⟩ : Shape).Idx → EReal) : (⟨4, ![B, 1, 1, 10752]⟩ : Shape).Idx → EReal :=
  fun y => pyr (entry x (y 0)) (y 3).val

theorem pyramid_apply (B : ℕ) (x : (⟨4, ![B, 64, 64, 512]⟩ : Shape).Idx → EReal) (b : Fin B) (u v : Fin 1)
    (l : Fin 10752) : pyramid B x (ix4 b u v l) = pyr (entry x b) l.val := rfl

end Cert.Pyramid

end
-- ==== Proof.BlockSums.lean ====
/-
  The kernel's 16 × 16 block sums, read at an entry.

  The kernel takes the image four strips of 16 rows at a time.  It sums a strip over its rows — leaving, for every
  column and channel, the sum of that column's 16 entries in the strip — then cuts the 64 columns into four groups of 16
  and sums each group over its columns.  So strip `i`, group `j` gives, for batch entry `b` and channel `c`, the sum of
  `x (b, 16 i + h, 16 j + w, c)` over `h, w < 16`: the sum of the image over the square window `(i, j)` of side 16.  The
  kernel sums rows first and columns second; the window's sum is written rows outside, columns inside; exchanging the two
  finite sums is the only step.
-/
import proofs.«143913_j50457275793429_2_alg».proof.Proof.Gen.KernelIdeal.Skeleton
import proofs.«143913_j50457275793429_2_alg».proof.Proof.Pyramid
import Idealize.ShloMosaic.PureOps.Ideal.Laws
import Idealize.ShloMosaic.Lib.ValueIdx
import Idealize.ShloMosaic.Lib.Pipeline.Value

noncomputable section

namespace Cert.KernelIdeal.BlockSums

open Cert.KernelIdeal Cert.KernelIdeal.Gen Idealize.ShloMosaic Idealize.ShloMosaic.ValueIdx
open scoped BigOperators

/-- A strip summed over its 16 rows, at column `w` and channel `c` of batch entry `b`. -/
theorem stripSum_apply (v : FVec Ideal S2x16x64x512 .f32) (b : Fin 2) (w : Fin 64) (c : Fin 512) :
    multiReduction .add [1] S2x64x512 v 0x00000000#32 reduces_S2x16x64x512_S2x64x512 (.inl rfl) rfl (ix3 b w c)
      = ∑ h : Fin 16, v (ix4 b h w c) := by
  refine (Ideal.multiReduction_add_single v 0x00000000#32 reduces_S2x16x64x512_S2x64x512 (.inl rfl) rfl (ix3 b w c)).trans ?_
  show ∑ h : Fin 16, v (reduces_S2x16x64x512_S2x64x512.lift (ix3 b w c) h) = _
  refine Finset.sum_congr rfl fun h _ => congrArg v ?_
  funext a
  match a with
  | ⟨0, _⟩ => rfl
  | ⟨1, _⟩ => rfl
  | ⟨2, _⟩ => rfl
  | ⟨3, _⟩ => rfl

/-- The 16 columns from `off` of that row sum, summed over the columns: the strip's sum over a 16 × 16 block. -/
theorem blockSum_apply (v : FVec Ideal S2x16x64x512 .f32) (off : ℕ) (hoff : off + 16 ≤ 64)
    (hsl : S2x64x512.Slices ![0, off, 0] S2x16x512) (b : Fin 2) (c : Fin 512) :
    multiReduction .add [1] S2x512
        (extractStridedSlice S2x16x512 ![0, off, 0]
          (multiReduction .add [1] S2x64x512 v 0x00000000#32 reduces_S2x16x64x512_S2x64x512 (.inl rfl) rfl) hsl)
        0x00000000#32 reduces_S2x16x512_S2x512 (.inl rfl) rfl (ix2 b c)
      = ∑ w : Fin 16, ∑ h : Fin 16, v (ix4 b h ⟨off + w.val, by have := w.isLt; omega⟩ c) := by
  refine (Ideal.multiReduction_add_single _ 0x00000000#32 reduces_S2x16x512_S2x512 (.inl rfl) rfl (ix2 b c)).trans ?_
  show ∑ w : Fin 16, extractStridedSlice S2x16x512 ![0, off, 0]
      (multiReduction .add [1] S2x64x512 v 0x00000000#32 reduces_S2x16x64x512_S2x64x512 (.inl rfl) rfl) hsl
      (reduces_S2x16x512_S2x512.lift (ix2 b c) w) = _
  refine Finset.sum_congr rfl fun w _ => ?_
  have hl : reduces_S2x16x512_S2x512.lift (ix2 b c) w = ix3 b w c := by
    funext a
    match a with
    | ⟨0, _⟩ => rfl
    | ⟨1, _⟩ => rfl
    | ⟨2, _⟩ => rfl
  rw [hl]
  refine (extractStridedSlice_apply ![0, off, 0] _ hsl (ix3 b w c)
    (ix3 b (⟨off + w.val, by have := w.isLt; omega⟩ : Fin 64) c) (fun a => ?_)).trans (stripSum_apply v b _ c)
  match a with
  | ⟨0, _⟩ => show b.val = 0 + b.val; omega
  | ⟨1, _⟩ => rfl
  | ⟨2, _⟩ => show c.val = 0 + c.val; omega

/-- The strip of 16 rows from row `r`, loaded from the image: its row `h` is the image's row `r + h`. -/
theorem ld_strip (x0 : Vec Ideal S2x64x64x512 .f32) (r : ℕ) (hr : r + 16 ≤ 64)
    (inb : ∀ a, (![0, r, 0, 0] : Fin 4 → ℕ) a + S2x16x64x512.size a ≤ S2x64x64x512.size a)
    (b : Fin 2) (h : Fin 16) (w : Fin 64) (c : Fin 512) :
    View.ld x0 (Rect.unit (s := S2x64x64x512) ![0, r, 0, 0] S2x16x64x512.size inb) (ix4 b h w c)
      = x0 (ix4 b ⟨r + h.val, by have := h.isLt; omega⟩ w c) := by
  show x0 _ = x0 _
  refine congrArg x0 ?_
  funext a
  apply Fin.ext
  match a with
  | ⟨0, _⟩ => show 0 + 1 * b.val = b.val; omega
  | ⟨1, _⟩ => show r + 1 * h.val = r + h.val; omega
  | ⟨2, _⟩ => show 0 + 1 * w.val = w.val; omega
  | ⟨3, _⟩ => show 0 + 1 * c.val = c.val; omega

/-- Strip `i`, column group `j`: the sum of the image over the window `(i, j)` of side 16, in channel `c` of batch
    entry `b`. -/
theorem block_eq (x0 : Vec Ideal S2x64x64x512 .f32) (i j : ℕ) (hi : i < 4) (hj : j < 4)
    (inb : ∀ a, (![0, 16 * i, 0, 0] : Fin 4 → ℕ) a + S2x16x64x512.size a ≤ S2x64x64x512.size a)
    (hsl : S2x64x512.Slices ![0, 16 * j, 0] S2x16x512) (b : Fin 2) (c : Fin 512) :
    multiReduction (F := Ideal) .add [1] S2x512
        (extractStridedSlice S2x16x512 ![0, 16 * j, 0]
          (multiReduction (F := Ideal) .add [1] S2x64x512
            (View.ld x0 (Rect.unit (s := S2x64x64x512) ![0, 16 * i, 0, 0] S2x16x64x512.size inb) : Vec Ideal S2x16x64x512 .f32)
            0x00000000#32 reduces_S2x16x64x512_S2x64x512 (.inl rfl) rfl) hsl)
        0x00000000#32 reduces_S2x16x512_S2x512 (.inl rfl) rfl (ix2 b c)
      = Cert.Pyramid.win (Cert.Pyramid.entry x0 b) 16 i j c.val := by
  refine (blockSum_apply _ (16 * j) (by omega) hsl b c).trans ?_
  unfold Cert.Pyramid.win
  rw [Finset.sum_comm]
  refine Finset.sum_congr rfl fun h _ => Finset.sum_congr rfl fun w _ => ?_
  rw [ld_strip x0 (16 * i) (by omega) inb b h _ c,
    Cert.Pyramid.entry_eq x0 b (i * 16 + h.val) (j * 16 + w.val) c.val
      (by have := h.isLt; omega) (by have := w.isLt; omega) c.isLt]
  refine congrArg x0 ?_
  funext a
  apply Fin.ext
  match a with
  | ⟨0, _⟩ => rfl
  | ⟨1, _⟩ => show 16 * i + h.val = i * 16 + h.val; omega
  | ⟨2, _⟩ => show 16 * j + w.val = j * 16 + w.val; omega
  | ⟨3, _⟩ => rfl

end Cert.KernelIdeal.BlockSums

end
-- ==== Proof.Consts.lean ====
/-
  The float constants of the two programs as the extended reals their bit patterns denote.

  The kernel multiplies a window's sum by `2⁻¹²`, `2⁻¹⁰` or `2⁻⁸`; the reference divides it by `4096`, `1024` or
  `256`.  All six are powers of two, so each pattern denotes its number exactly; with `x / n = x · (1/n)` on every
  extended real (for a real `n ≠ 0`) the two spellings of a mean agree.  The patterns are unfolded here, once.
-/
import Idealize.ShloMosaic.PureOps.Ideal
import Idealize.ShloMosaic.PureOps.Ideal.Laws

noncomputable section

namespace Cert.Consts

open Idealize.ShloMosaic

/-- `0x39800000` is `2⁻¹² = 1/4096`. -/
theorem ofBits_inv4096 : Ideal.ofBits .f32 0x39800000#32 = ((1 / 4096 : ℝ) : EReal) := by
  simp [Ideal.ofBits, Ideal.ieee, -EReal.coe_mul]; norm_num

/-- `0x3A800000` is `2⁻¹⁰ = 1/1024`. -/
theorem ofBits_inv1024 : Ideal.ofBits .f32 0x3A800000#32 = ((1 / 1024 : ℝ) : EReal) := by
  simp [Ideal.ofBits, Ideal.ieee, -EReal.coe_mul]; norm_num

/-- `0x3B800000` is `2⁻⁸ = 1/256`. -/
theorem ofBits_inv256 : Ideal.ofBits .f32 0x3B800000#32 = ((1 / 256 : ℝ) : EReal) := by
  simp [Ideal.ofBits, Ideal.ieee, -EReal.coe_mul]; norm_num

/-- `0x45800000` is `4096`. -/
theorem ofBits_4096 : Ideal.ofBits .f32 0x45800000#32 = ((4096 : ℝ) : EReal) := by
  simp [Ideal.ofBits, Ideal.ieee, -EReal.coe_mul]; norm_num

/-- `0x44800000` is `1024`. -/
theorem ofBits_1024 : Ideal.ofBits .f32 0x44800000#32 = ((1024 : ℝ) : EReal) := by
  simp [Ideal.ofBits, Ideal.ieee, -EReal.coe_mul]; norm_num

/-- `0x43800000` is `256`. -/
theorem ofBits_256 : Ideal.ofBits .f32 0x43800000#32 = ((256 : ℝ) : EReal) := by
  simp [Ideal.ofBits, Ideal.ieee, -EReal.coe_mul]; norm_num

/-- A sum from zero, divided by `4096`, is the sum times `1/4096`. -/
theorem mean4096 (s : EReal) :
    Ideal.div (Ideal.ofBits .f32 0x00000000#32 + s) (Ideal.ofBits .f32 0x45800000#32) = s * ((1 / 4096 : ℝ) : EReal) := by
  rw [Ideal.ofBits_zero_f32, zero_add, ofBits_4096, Ideal.div_coe (by norm_num : (4096 : ℝ) ≠ 0)]

/-- A sum from zero, divided by `1024`, is the sum times `1/1024`. -/
theorem mean1024 (s : EReal) :
    Ideal.div (Ideal.ofBits .f32 0x00000000#32 + s) (Ideal.ofBits .f32 0x44800000#32) = s * ((1 / 1024 : ℝ) : EReal) := by
  rw [Ideal.ofBits_zero_f32, zero_add, ofBits_1024, Ideal.div_coe (by norm_num : (1024 : ℝ) ≠ 0)]

/-- A sum from zero, divided by `256`, is the sum times `1/256`. -/
theorem mean256 (s : EReal) :
    Ideal.div (Ideal.ofBits .f32 0x00000000#32 + s) (Ideal.ofBits .f32 0x43800000#32) = s * ((1 / 256 : ℝ) : EReal) := by
  rw [Ideal.ofBits_zero_f32, zero_add, ofBits_256, Ideal.div_coe (by norm_num : (256 : ℝ) ≠ 0)]

end Cert.Consts

end
-- ==== Proof.Pieces.lean ====
/-
  What the kernel body leaves in its output block: the pooled array of its input block.

  At one grid point the body holds the images of two batch entries (a block `x0 : [2, 64, 64, 512]`) and fills a block
  `[2, 1, 1, 10752]` by 21 stores of 512 lanes each.  From the sixteen sums `S i j` of the image over the 16 × 16
  windows `(i, j)` it stores: at lanes `0 … 511` the sum of all sixteen times `2⁻¹²` — the whole image's mean, the image
  being the union of the sixteen windows; at lanes `512 + (2p + q)·512 …` the sum of the four windows
  `(2p, 2q), (2p, 2q+1), (2p+1, 2q), (2p+1, 2q+1)` times `2⁻¹⁰` — the mean of the window `(p, q)` of side 32, which is their
  union; at lanes `2560 + (4i + j)·512 …` the sum `S i j` times `2⁻⁸` — that window's mean.  So every store's payload is the
  pooled array of `x0` under the store's rectangle, and the stores tile the block: the block IS the pooled array of `x0`.
-/
import proofs.«143913_j50457275793429_2_alg».proof.Proof.Gen.KernelIdeal.Frame
import proofs.«143913_j50457275793429_2_alg».proof.Proof.BlockSums
import proofs.«143913_j50457275793429_2_alg».proof.Proof.Consts
import proofs.«143913_j50457275793429_2_alg».proof.Proof.Pyramid
import Idealize.ShloMosaic.Lib.Pipeline.Value
import Idealize.ShloMosaic.Lib.ValueIdx

noncomputable section

namespace Cert.KernelIdeal.Pieces

open Cert.KernelIdeal Cert.KernelIdeal.Gen Idealize.ShloMosaic Idealize.ShloMosaic.ValueIdx
open Cert.Pyramid

variable (x0 : Vec Ideal S2x64x64x512 .f32)

/-! ## The sixteen window sums -/

theorem s00 (b : Fin 2) (c : Fin 512) : k0_pay6 (View.ld x0 r0_0) (ix2 b c) = win (entry x0 b) 16 0 0 c.val :=
  BlockSums.block_eq x0 0 0 (by omega) (by omega) inb_S2x64x64x512_S2x16x64x512_0_0_0_0 slices_S2x64x512_o0_0_0_S2x16x512 b c
theorem s01 (b : Fin 2) (c : Fin 512) : k0_pay7 (View.ld x0 r0_0) (ix2 b c) = win (entry x0 b) 16 0 1 c.val :=
  BlockSums.block_eq x0 0 1 (by omega) (by omega) inb_S2x64x64x512_S2x16x64x512_0_0_0_0 slices_S2x64x512_o0_16_0_S2x16x512 b c
theorem s02 (b : Fin 2) (c : Fin 512) : k0_pay8 (View.ld x0 r0_0) (ix2 b c) = win (entry x0 b) 16 0 2 c.val :=
  BlockSums.block_eq x0 0 2 (by omega) (by omega) inb_S2x64x64x512_S2x16x64x512_0_0_0_0 slices_S2x64x512_o0_32_0_S2x16x512 b c
theorem s03 (b : Fin 2) (c : Fin 512) : k0_pay9 (View.ld x0 r0_0) (ix2 b c) = win (entry x0 b) 16 0 3 c.val :=
  BlockSums.block_eq x0 0 3 (by omega) (by omega) inb_S2x64x64x512_S2x16x64x512_0_0_0_0 slices_S2x64x512_o0_48_0_S2x16x512 b c
theorem s10 (b : Fin 2) (c : Fin 512) : k0_pay11 (View.ld x0 r0_1) (ix2 b c) = win (entry x0 b) 16 1 0 c.val :=
  BlockSums.block_eq x0 1 0 (by omega) (by omega) inb_S2x64x64x512_S2x16x64x512_0_16_0_0 slices_S2x64x512_o0_0_0_S2x16x512 b c
theorem s11 (b : Fin 2) (c : Fin 512) : k0_pay12 (View.ld x0 r0_1) (ix2 b c) = win (entry x0 b) 16 1 1 c.val :=
  BlockSums.block_eq x0 1 1 (by omega) (by omega) inb_S2x64x64x512_S2x16x64x512_0_16_0_0 slices_S2x64x512_o0_16_0_S2x16x512 b c
theorem s12 (b : Fin 2) (c : Fin 512) : k0_pay13 (View.ld x0 r0_1) (ix2 b c) = win (entry x0 b) 16 1 2 c.val :=
  BlockSums.block_eq x0 1 2 (by omega) (by omega) inb_S2x64x64x512_S2x16x64x512_0_16_0_0 slices_S2x64x512_o0_32_0_S2x16x512 b c
theorem s13 (b : Fin 2) (c : Fin 512) : k0_pay14 (View.ld x0 r0_1) (ix2 b c) = win (entry x0 b) 16 1 3 c.val :=
  BlockSums.block_eq x0 1 3 (by omega) (by omega) inb_S2x64x64x512_S2x16x64x512_0_16_0_0 slices_S2x64x512_o0_48_0_S2x16x512 b c
theorem s20 (b : Fin 2) (c : Fin 512) : k0_pay16 (View.ld x0 r0_2) (ix2 b c) = win (entry x0 b) 16 2 0 c.val :=
  BlockSums.block_eq x0 2 0 (by omega) (by omega) inb_S2x64x64x512_S2x16x64x512_0_32_0_0 slices_S2x64x512_o0_0_0_S2x16x512 b c
theorem s21 (b : Fin 2) (c : Fin 512) : k0_pay17 (View.ld x0 r0_2) (ix2 b c) = win (entry x0 b) 16 2 1 c.val :=
  BlockSums.block_eq x0 2 1 (by omega) (by omega) inb_S2x64x64x512_S2x16x64x512_0_32_0_0 slices_S2x64x512_o0_16_0_S2x16x512 b c
theorem s22 (b : Fin 2) (c : Fin 512) : k0_pay18 (View.ld x0 r0_2) (ix2 b c) = win (entry x0 b) 16 2 2 c.val :=
  BlockSums.block_eq x0 2 2 (by omega) (by omega) inb_S2x64x64x512_S2x16x64x512_0_32_0_0 slices_S2x64x512_o0_32_0_S2x16x512 b c
theorem s23 (b : Fin 2) (c : Fin 512) : k0_pay19 (View.ld x0 r0_2) (ix2 b c) = win (entry x0 b) 16 2 3 c.val :=
  BlockSums.block_eq x0 2 3 (by omega) (by omega) inb_S2x64x64x512_S2x16x64x512_0_32_0_0 slices_S2x64x512_o0_48_0_S2x16x512 b c
theorem s30 (b : Fin 2) (c : Fin 512) : k0_pay21 (View.ld x0 r0_3) (ix2 b c) = win (entry x0 b) 16 3 0 c.val :=
  BlockSums.block_eq x0 3 0 (by omega) (by omega) inb_S2x64x64x512_S2x16x64x512_0_48_0_0 slices_S2x64x512_o0_0_0_S2x16x512 b c
theorem s31 (b : Fin 2) (c : Fin 512) : k0_pay22 (View.ld x0 r0_3) (ix2 b c) = win (entry x0 b) 16 3 1 c.val :=
  BlockSums.block_eq x0 3 1 (by omega) (by omega) inb_S2x64x64x512_S2x16x64x512_0_48_0_0 slices_S2x64x512_o0_16_0_S2x16x512 b c
theorem s32 (b : Fin 2) (c : Fin 512) : k0_pay23 (View.ld x0 r0_3) (ix2 b c) = win (entry x0 b) 16 3 2 c.val :=
  BlockSums.block_eq x0 3 2 (by omega) (by omega) inb_S2x64x64x512_S2x16x64x512_0_48_0_0 slices_S2x64x512_o0_32_0_S2x16x512 b c
theorem s33 (b : Fin 2) (c : Fin 512) : k0_pay24 (View.ld x0 r0_3) (ix2 b c) = win (entry x0 b) 16 3 3 c.val :=
  BlockSums.block_eq x0 3 3 (by omega) (by omega) inb_S2x64x64x512_S2x16x64x512_0_48_0_0 slices_S2x64x512_o0_48_0_S2x16x512 b c

/-! ## One store: a `[2, 512]` value times a constant, recast to `[2, 1, 1, 512]`, under its 512 lanes -/

/-- The stored vector at `(b, 0, 0, c)` is the value at `(b, c)` times the constant. -/
theorem scaled_apply (S : FVec Ideal S2x512 .f32) (word : BitVec 32) (b : Fin 2) (u v : Fin 1) (c : Fin 512) :
    shapeCast S2x1x1x512 (mulf S (broadcast S2x512 (Scalar.ofBits (F := Ideal) .f32 word))) shapeCasts_S2x512_S2x1x1x512
        (ix4 b u v c)
      = S (ix2 b c) * Ideal.ofBits .f32 word := by
  refine (shapeCast_apply _ shapeCasts_S2x512_S2x1x1x512 (ix4 b u v c) (ix2 b c) ?_).trans rfl
  rw [Shape.rowMajor_val_two, Shape.rowMajor_val_four]
  have hu := u.isLt; have hv := v.isLt
  show b.val * 512 + c.val = ((b.val * 1 + u.val) * 1 + v.val) * 512 + c.val
  omega

/-- The pooled array of the block under the 512 lanes from `off`: lane `off + c` of batch entry `b`. -/
theorem pyramid_emb (off : ℕ) (inb : ∀ a, (![0, 0, 0, off] : Fin 4 → ℕ) a + S2x1x1x512.size a ≤ S2x1x1x10752.size a)
    (b : Fin 2) (u v : Fin 1) (c : Fin 512) :
    pyramid 2 x0 ((Rect.unit (s := S2x1x1x10752) ![0, 0, 0, off] S2x1x1x512.size inb).emb (ix4 b u v c))
      = pyr (entry x0 b) (off + c.val) := by
  have e0 : ((Rect.unit (s := S2x1x1x10752) ![0, 0, 0, off] S2x1x1x512.size inb).emb (ix4 b u v c) 0 : Fin 2) = b :=
    Fin.ext (by show 0 + 1 * b.val = b.val; omega)
  have e3 : ((Rect.unit (s := S2x1x1x10752) ![0, 0, 0, off] S2x1x1x512.size inb).emb (ix4 b u v c) 3).val = off + c.val := by
    show off + 1 * c.val = off + c.val; omega
  show pyr (entry x0 ((Rect.unit (s := S2x1x1x10752) ![0, 0, 0, off] S2x1x1x512.size inb).emb (ix4 b u v c) 0))
    ((Rect.unit (s := S2x1x1x10752) ![0, 0, 0, off] S2x1x1x512.size inb).emb (ix4 b u v c) 3).val = _
  rw [e0, e3]

/-- A store of `S` times a constant under the 512 lanes from `off` is the pooled array there, once `S` times the
    constant is the pooled value at those lanes. -/
theorem lane_piece (S : FVec Ideal S2x512 .f32) (word : BitVec 32) (off : ℕ)
    (inb : ∀ a, (![0, 0, 0, off] : Fin 4 → ℕ) a + S2x1x1x512.size a ≤ S2x1x1x10752.size a)
    (h : ∀ (b : Fin 2) (c : Fin 512), S (ix2 b c) * Ideal.ofBits .f32 word = pyr (entry x0 b) (off + c.val))
    (xx : S2x1x1x512.Idx) :
    shapeCast S2x1x1x512 (mulf S (broadcast S2x512 (Scalar.ofBits (F := Ideal) .f32 word))) shapeCasts_S2x512_S2x1x1x512 xx
      = pyramid 2 x0 ((Rect.unit (s := S2x1x1x10752) ![0, 0, 0, off] S2x1x1x512.size inb).emb xx) := by
  obtain ⟨b, u, v, c, rfl⟩ : ∃ (b : Fin 2) (u v : Fin 1) (c : Fin 512), xx = ix4 b u v c :=
    ⟨xx 0, xx 1, xx 2, xx 3, eq_ix4 xx⟩
  rw [scaled_apply, pyramid_emb]
  exact h b c

/-! ## The three levels -/

/-- Level 4: one window's sum times `2⁻⁸`. -/
theorem level4 (S : FVec Ideal S2x512 .f32) (i j : ℕ) (hi : i < 4) (hj : j < 4)
    (hS : ∀ (b : Fin 2) (c : Fin 512), S (ix2 b c) = win (entry x0 b) 16 i j c.val) (b : Fin 2) (c : Fin 512) :
    S (ix2 b c) * Ideal.ofBits .f32 0x3B800000#32 = pyr (entry x0 b) (2560 + (4 * i + j) * 512 + c.val) := by
  rw [hS, Cert.Consts.ofBits_inv256, pyr_level4 _ i j c.val _ hi hj c.isLt rfl]

/-- Level 2: four windows' sums, added, times `2⁻¹⁰`. -/
theorem level2 (S00 S01 S10 S11 : FVec Ideal S2x512 .f32) (p q : ℕ) (hp : p < 2) (hq : q < 2)
    (h00 : ∀ (b : Fin 2) (c : Fin 512), S00 (ix2 b c) = win (entry x0 b) 16 (2 * p) (2 * q) c.val)
    (h01 : ∀ (b : Fin 2) (c : Fin 512), S01 (ix2 b c) = win (entry x0 b) 16 (2 * p) (2 * q + 1) c.val)
    (h10 : ∀ (b : Fin 2) (c : Fin 512), S10 (ix2 b c) = win (entry x0 b) 16 (2 * p + 1) (2 * q) c.val)
    (h11 : ∀ (b : Fin 2) (c : Fin 512), S11 (ix2 b c) = win (entry x0 b) 16 (2 * p + 1) (2 * q + 1) c.val)
    (b : Fin 2) (c : Fin 512) :
    (addf (addf (addf S00 S01) S10) S11) (ix2 b c) * Ideal.ofBits .f32 0x3A800000#32
      = pyr (entry x0 b) (512 + (2 * p + q) * 512 + c.val) := by
  show (S00 (ix2 b c) + S01 (ix2 b c) + S10 (ix2 b c) + S11 (ix2 b c)) * Ideal.ofBits .f32 0x3A800000#32 = _
  rw [h00, h01, h10, h11, Cert.Consts.ofBits_inv1024, pyr_level2 _ p q c.val _ hp hq c.isLt rfl, win_32]

/-- Level 1: all sixteen windows' sums, added, times `2⁻¹²`. -/
theorem level1 (b : Fin 2) (c : Fin 512) :
    (addf (addf (addf (addf (addf (addf (addf (addf (addf (addf (addf (addf (addf (addf (addf
        (k0_pay6 (View.ld x0 r0_0)) (k0_pay7 (View.ld x0 r0_0))) (k0_pay8 (View.ld x0 r0_0))) (k0_pay9 (View.ld x0 r0_0)))
        (k0_pay11 (View.ld x0 r0_1))) (k0_pay12 (View.ld x0 r0_1))) (k0_pay13 (View.ld x0 r0_1))) (k0_pay14 (View.ld x0 r0_1)))
        (k0_pay16 (View.ld x0 r0_2))) (k0_pay17 (View.ld x0 r0_2))) (k0_pay18 (View.ld x0 r0_2))) (k0_pay19 (View.ld x0 r0_2)))
        (k0_pay21 (View.ld x0 r0_3))) (k0_pay22 (View.ld x0 r0_3))) (k0_pay23 (View.ld x0 r0_3))) (k0_pay24 (View.ld x0 r0_3)))
        (ix2 b c) * Ideal.ofBits .f32 0x39800000#32
      = pyr (entry x0 b) (0 + c.val) := by
  show (k0_pay6 (View.ld x0 r0_0) (ix2 b c) + k0_pay7 (View.ld x0 r0_0) (ix2 b c) + k0_pay8 (View.ld x0 r0_0) (ix2 b c)
      + k0_pay9 (View.ld x0 r0_0) (ix2 b c) + k0_pay11 (View.ld x0 r0_1) (ix2 b c) + k0_pay12 (View.ld x0 r0_1) (ix2 b c)
      + k0_pay13 (View.ld x0 r0_1) (ix2 b c) + k0_pay14 (View.ld x0 r0_1) (ix2 b c) + k0_pay16 (View.ld x0 r0_2) (ix2 b c)
      + k0_pay17 (View.ld x0 r0_2) (ix2 b c) + k0_pay18 (View.ld x0 r0_2) (ix2 b c) + k0_pay19 (View.ld x0 r0_2) (ix2 b c)
      + k0_pay21 (View.ld x0 r0_3) (ix2 b c) + k0_pay22 (View.ld x0 r0_3) (ix2 b c) + k0_pay23 (View.ld x0 r0_3) (ix2 b c)
      + k0_pay24 (View.ld x0 r0_3) (ix2 b c)) * Ideal.ofBits .f32 0x39800000#32 = _
  rw [s00, s01, s02, s03, s10, s11, s12, s13, s20, s21, s22, s23, s30, s31, s32, s33, Cert.Consts.ofBits_inv4096,
    Nat.zero_add, pyr_level1 _ c.val c.isLt, win_64]

/-! ## The block -/

/-- The body's output block is the pooled array of its input block. -/
theorem out_eq : out0_1 x0 = pyramid 2 x0 := by
  funext y
  unfold out0_1
  refine View.canon_apply_of_pieces (Val := Elt Ideal) (pyramid 2 x0 : S2x1x1x10752.Idx → Elt Ideal .f32) _ ?_ y
    (cover0_1 _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl
    | rfl | rfl | rfl | rfl
  · exact lane_piece x0 _ _ _ inb_S2x1x1x10752_S2x1x1x512_0_0_0_10240 (level4 x0 _ 3 3 (by omega) (by omega) (s33 x0))
  · exact lane_piece x0 _ _ _ inb_S2x1x1x10752_S2x1x1x512_0_0_0_9728 (level4 x0 _ 3 2 (by omega) (by omega) (s32 x0))
  · exact lane_piece x0 _ _ _ inb_S2x1x1x10752_S2x1x1x512_0_0_0_9216 (level4 x0 _ 3 1 (by omega) (by omega) (s31 x0))
  · exact lane_piece x0 _ _ _ inb_S2x1x1x10752_S2x1x1x512_0_0_0_8704 (level4 x0 _ 3 0 (by omega) (by omega) (s30 x0))
  · exact lane_piece x0 _ _ _ inb_S2x1x1x10752_S2x1x1x512_0_0_0_8192 (level4 x0 _ 2 3 (by omega) (by omega) (s23 x0))
  · exact lane_piece x0 _ _ _ inb_S2x1x1x10752_S2x1x1x512_0_0_0_7680 (level4 x0 _ 2 2 (by omega) (by omega) (s22 x0))
  · exact lane_piece x0 _ _ _ inb_S2x1x1x10752_S2x1x1x512_0_0_0_7168 (level4 x0 _ 2 1 (by omega) (by omega) (s21 x0))
  · exact lane_piece x0 _ _ _ inb_S2x1x1x10752_S2x1x1x512_0_0_0_6656 (level4 x0 _ 2 0 (by omega) (by omega) (s20 x0))
  · exact lane_piece x0 _ _ _ inb_S2x1x1x10752_S2x1x1x512_0_0_0_6144 (level4 x0 _ 1 3 (by omega) (by omega) (s13 x0))
  · exact lane_piece x0 _ _ _ inb_S2x1x1x10752_S2x1x1x512_0_0_0_5632 (level4 x0 _ 1 2 (by omega) (by omega) (s12 x0))
  · exact lane_piece x0 _ _ _ inb_S2x1x1x10752_S2x1x1x512_0_0_0_5120 (level4 x0 _ 1 1 (by omega) (by omega) (s11 x0))
  · exact lane_piece x0 _ _ _ inb_S2x1x1x10752_S2x1x1x512_0_0_0_4608 (level4 x0 _ 1 0 (by omega) (by omega) (s10 x0))
  · exact lane_piece x0 _ _ _ inb_S2x1x1x10752_S2x1x1x512_0_0_0_4096 (level4 x0 _ 0 3 (by omega) (by omega) (s03 x0))
  · exact lane_piece x0 _ _ _ inb_S2x1x1x10752_S2x1x1x512_0_0_0_3584 (level4 x0 _ 0 2 (by omega) (by omega) (s02 x0))
  · exact lane_piece x0 _ _ _ inb_S2x1x1x10752_S2x1x1x512_0_0_0_3072 (level4 x0 _ 0 1 (by omega) (by omega) (s01 x0))
  · exact lane_piece x0 _ _ _ inb_S2x1x1x10752_S2x1x1x512_0_0_0_2560 (level4 x0 _ 0 0 (by omega) (by omega) (s00 x0))
  · exact lane_piece x0 _ _ _ inb_S2x1x1x10752_S2x1x1x512_0_0_0_2048 (level2 x0 _ _ _ _ 1 1 (by omega) (by omega) (s22 x0) (s23 x0) (s32 x0) (s33 x0))
  · exact lane_piece x0 _ _ _ inb_S2x1x1x10752_S2x1x1x512_0_0_0_1536 (level2 x0 _ _ _ _ 1 0 (by omega) (by omega) (s20 x0) (s21 x0) (s30 x0) (s31 x0))
  · exact lane_piece x0 _ _ _ inb_S2x1x1x10752_S2x1x1x512_0_0_0_1024 (level2 x0 _ _ _ _ 0 1 (by omega) (by omega) (s02 x0) (s03 x0) (s12 x0) (s13 x0))
  · exact lane_piece x0 _ _ _ inb_S2x1x1x10752_S2x1x1x512_0_0_0_512 (level2 x0 _ _ _ _ 0 0 (by omega) (by omega) (s00 x0) (s01 x0) (s10 x0) (s11 x0))
  · exact lane_piece x0 _ _ _ inb_S2x1x1x10752_S2x1x1x512_0_0_0_0 (level1 x0)

end Cert.KernelIdeal.Pieces

end
-- ==== Proof.Blocks.lean ====
/-
  From the kernel's blocks to its result array.

  The grid has 16 points; point `t` stages batch entries `2t` and `2t + 1` of the image and writes back batch entries
  `2t` and `2t + 1` of the result.  The pooled value of a batch entry depends on that entry's image alone, so the pooled
  array of the staged block, at its entry `b`, is the pooled array of the whole image array at entry `2t + b`: what point
  `t` writes back is block `t` of the pooled array of the argument.  The sixteen blocks tile the result (entry `b` lies
  in block `b / 2`), so the result array ends as the pooled array of the argument.
-/
import proofs.«143913_j50457275793429_2_alg».proof.Proof.Gen.KernelIdeal.Value
import proofs.«143913_j50457275793429_2_alg».proof.Proof.Pieces
import proofs.«143913_j50457275793429_2_alg».proof.Proof.Pyramid
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Pyramid

/-! ## The pooled value of a batch entry depends on that entry's image alone -/

/-- Two batch entries with the same image read the same at every coordinate. -/
theorem entry_congr {B B' : ℕ} (x : (⟨4, ![B, 64, 64, 512]⟩ : Shape).Idx → EReal)
    (x' : (⟨4, ![B', 64, 64, 512]⟩ : Shape).Idx → EReal) (b : Fin B) (b' : Fin B')
    (h : ∀ (r w : Fin 64) (c : Fin 512), x (ix4 b r w c) = x' (ix4 b' r w c)) : entry x b = entry x' b' := by
  funext r w c
  unfold entry
  by_cases hr : r < 64
  · by_cases hw : w < 64
    · by_cases hc : c < 512
      · rw [dif_pos hr, dif_pos hw, dif_pos hc, dif_pos hr, dif_pos hw, dif_pos hc]
        exact h ⟨r, hr⟩ ⟨w, hw⟩ ⟨c, hc⟩
      · rw [dif_pos hr, dif_pos hw, dif_neg hc, dif_pos hr, dif_pos hw, dif_neg hc]
    · rw [dif_pos hr, dif_neg hw, dif_pos hr, dif_neg hw]
  · rw [dif_neg hr, dif_neg hr]

/-- So their pooled values agree lane by lane. -/
theorem pyramid_congr {B B' : ℕ} (x : (⟨4, ![B, 64, 64, 512]⟩ : Shape).Idx → EReal)
    (x' : (⟨4, ![B', 64, 64, 512]⟩ : Shape).Idx → EReal) (b : Fin B) (b' : Fin B') (u v u' v' : Fin 1) (l : Fin 10752)
    (h : ∀ (r w : Fin 64) (c : Fin 512), x (ix4 b r w c) = x' (ix4 b' r w c)) :
    pyramid B x (ix4 b u v l) = pyramid B' x' (ix4 b' u' v' l) := by
  rw [pyramid_apply, pyramid_apply, entry_congr x x' b b' h]

/-! ## The blocks -/

variable (m : (ℓ : Loc nD τ sig) → Buf (Elt Ideal) ℓ) (ρ : Dev nD → PrngReg)

/-- Both windows move along the batch axis only: at point `t` the block index is `(t, 0, 0, 0)` (decided over the 16 points). -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The staged block at point `t`: its entry `(b, r, w, ch)` is the argument's entry `(2t + b, r, w, ch)`. -/
theorem iblk_apply (c : Dev nD) (t : Fin cfg0.N) (b : Fin 2) (r w : Fin 64) (ch : Fin 512) (b' : Fin 32)
    (hb' : b'.val = 2 * t.val + b.val) :
    (iblk m c 0 t : Vec Ideal S2x64x64x512 .f32) (ix4 b r w ch)
      = (V m c main_arg0 : S32x64x64x512.Idx → EReal) (ix4 b' r w ch) := by
  obtain ⟨e0, e1, e2, e3, -, -, -, -⟩ := idx_facts t
  unfold iblk
  rw [View.read_apply]
  show V m c main_arg0 (((cfg0.win 0).blk t).view.emb (ix4 b r w ch)) = V m c main_arg0 (ix4 b' r w ch)
  refine congrArg (V m c main_arg0) ?_
  funext a
  apply Fin.ext
  match a with
  | ⟨0, _⟩ => show win0_0.index t (0 : Fin 4) * 2 + 1 * b.val = b'.val; rw [e0, hb']; omega
  | ⟨1, _⟩ => show win0_0.index t (1 : Fin 4) * 64 + 1 * r.val = r.val; rw [e1]; omega
  | ⟨2, _⟩ => show win0_0.index t (2 : Fin 4) * 64 + 1 * w.val = w.val; rw [e2]; omega
  | ⟨3, _⟩ => show win0_0.index t (3 : Fin 4) * 512 + 1 * ch.val = ch.val; rw [e3]; omega

/-- What point `t` writes back is block `t` of the pooled array of the argument. -/
theorem flushed_eq (c : Dev nD) (t : Fin cfg0.N) :
    (dats m 0 c).flushed 1 t
      = ((cfg0.win 1).blk t).view.read (Elt Ideal) (pyramid 32 (V m c main_arg0 : S32x64x64x512.Idx → EReal)) := by
  rw [Value.flushed1]
  have ho : out0_1 (iblk m c 0 t) = pyramid 2 (iblk m c 0 t : Vec Ideal S2x64x64x512 .f32) := Pieces.out_eq (iblk m c 0 t)
  rw [ho]
  obtain ⟨-, -, -, -, f0, f1, f2, f3⟩ := idx_facts t
  have hN : cfg0.N = 16 := N_0
  have ht : t.val < 16 := hN ▸ t.isLt
  funext y
  obtain ⟨b, u, v, l, rfl⟩ : ∃ (b : Fin 2) (u v : Fin 1) (l : Fin 10752), y = ix4 b u v l :=
    ⟨y 0, y 1, y 2, y 3, eq_ix4 y⟩
  have hb := b.isLt
  show pyramid 2 (iblk m c 0 t : Vec Ideal S2x64x64x512 .f32) (ix4 b u v l)
    = pyramid 32 (V m c main_arg0 : S32x64x64x512.Idx → EReal) (((cfg0.win 1).blk t).view.emb (ix4 b u v l))
  have he : ((cfg0.win 1).blk t).view.emb (ix4 b u v l)
      = ix4 (⟨2 * t.val + b.val, by omega⟩ : Fin 32) (0 : Fin 1) (0 : Fin 1) l := by
    funext a
    apply Fin.ext
    match a with
    | ⟨0, _⟩ => show win0_1.index t (0 : Fin 4) * 2 + 1 * b.val = 2 * t.val + b.val; rw [f0]; omega
    | ⟨1, _⟩ => show win0_1.index t (1 : Fin 4) * 1 + 1 * u.val = 0; rw [f1]; have := u.isLt; omega
    | ⟨2, _⟩ => show win0_1.index t (2 : Fin 4) * 1 + 1 * v.val = 0; rw [f2]; have := v.isLt; omega
    | ⟨3, _⟩ => show win0_1.index t (3 : Fin 4) * 10752 + 1 * l.val = l.val; rw [f3]; omega
  rw [he]
  exact pyramid_congr _ _ b _ u v 0 0 l fun r w ch => iblk_apply m c t b r w ch _ rfl

/-- An index of the result is in point `t`'s block iff each coordinate is in the block's range on its axis. -/
theorem mem_blk (t : Fin cfg0.N) (i : S32x1x1x10752.Idx) :
    i ∈ ((cfg0.win 1).blk t).view.set ↔ ∀ a : Fin 4, win0_1.index t a * S2x1x1x10752.size a ≤ (i a).val
      ∧ (i a).val < win0_1.index t a * S2x1x1x10752.size a + S2x1x1x10752.size a := by
  show i ∈ ((View.whole main_v0).slice (win0_1.rect t)).set ↔ _
  rw [View.set_slice_whole, Rect.mem_set_unit]
  exact Iff.rfl

/-- The blocks tile the result: batch entry `b` lies in the block of point `b / 2`. -/
theorem cover (i : S32x1x1x10752.Idx) :
    ∃ t : Fin cfg0.N, (cfg0.win 1).flush t = true ∧ i ∈ ((cfg0.win 1).blk t).view.set := by
  have hN : cfg0.N = 16 := N_0
  have h0 : (i 0).val < 32 := (i 0).isLt
  have h1 : (i 1).val < 1 := (i 1).isLt
  have h2 : (i 2).val < 1 := (i 2).isLt
  have h3 : (i 3).val < 10752 := (i 3).isLt
  refine ⟨⟨(i 0).val / 2, by rw [hN]; omega⟩, flush0_1 _, ?_⟩
  obtain ⟨-, -, -, -, f0, f1, f2, f3⟩ := idx_facts ⟨(i 0).val / 2, by rw [hN]; omega⟩
  rw [mem_blk]
  intro a
  match a with
  | ⟨0, _⟩ =>
    show win0_1.index _ (0 : Fin 4) * 2 ≤ (i 0).val ∧ (i 0).val < win0_1.index _ (0 : Fin 4) * 2 + 2
    rw [f0]; show (i 0).val / 2 * 2 ≤ (i 0).val ∧ (i 0).val < (i 0).val / 2 * 2 + 2; omega
  | ⟨1, _⟩ =>
    show win0_1.index _ (1 : Fin 4) * 1 ≤ (i 1).val ∧ (i 1).val < win0_1.index _ (1 : Fin 4) * 1 + 1
    rw [f1]; omega
  | ⟨2, _⟩ =>
    show win0_1.index _ (2 : Fin 4) * 1 ≤ (i 2).val ∧ (i 2).val < win0_1.index _ (2 : Fin 4) * 1 + 1
    rw [f2]; omega
  | ⟨3, _⟩ =>
    show win0_1.index _ (3 : Fin 4) * 10752 ≤ (i 3).val ∧ (i 3).val < win0_1.index _ (3 : Fin 4) * 10752 + 10752
    rw [f3]; omega

/-- The result array after the run is the pooled array of the argument. -/
theorem final (c : Dev nD) :
    (dats m 0 c).arrAt 1 cfg0.N = pyramid 32 (V m c main_arg0 : S32x64x64x512.Idx → EReal) :=
  (dats m 0 c).arrAt_eq_of_cover 1 (pyramid 32 (V m c main_arg0 : S32x64x64x512.Idx → EReal))
    (fun t _ => flushed_eq m c t) cover

/-- Every weakly fair execution of the kernel's program ends with the result at the pooled array of the argument, the
    argument unchanged. -/
theorem run : θ_run defs (onTc (τ := τ) (main (F := Ideal))) ⟨m, fun _ => 0, ρ⟩ fun r => ∀ c : Dev nD,
      r.2.mem ((c : Thread nD τ).loc main_v0)
        = pyramid 32 (m ((c : Thread nD τ).loc main_arg0) : S32x64x64x512.Idx → EReal)
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Blocks

end
-- ==== Proof.LibHostWindowSum.lean ====
/-
  A host sum over TWO axes of a rank-6 array, read at an index.

  An image cut into a `g × g` grid of `n × n` windows is the rank-6 array `[B, g, n, g, n, C]` (batch, window row,
  row inside the window, window column, column inside the window, channel).  Summing it over axes 2 and 4 — the two
  coordinates inside the window — leaves `[B, g, g, C]`: at `(b, i, j, c)` the initial value plus the sum over every
  `(h, w)` of the entry `(b, i, h, j, w, c)`.  The source indices that drop to `(b, i, j, c)` are exactly those
  entries, one for each pair `(h, w)`: that bijection is the whole proof.
-/
import Idealize.ShloMosaic.PureOps.Ideal.Laws
import Idealize.ShloMosaic.Lib.ValueIdx
import Idealize.ShloMosaic.Lib.ValueIdxRank6

noncomputable section

namespace Cert.LibHostWindowSum

open Idealize.ShloMosaic Idealize.ShloMosaic.ValueIdx
open scoped BigOperators

variable {B g n C : ℕ}

/-- Dropping axes 2 and 4 keeps axes 0, 1, 3 and 5, in order. -/
theorem drop_val0 (h' : (⟨6, ![B, g, n, g, n, C]⟩ : Shape).ReducesTo [2, 4] ⟨4, ![B, g, g, C]⟩)
    (k : (⟨6, ![B, g, n, g, n, C]⟩ : Shape).Idx) : ((h'.drop k) 0).val = (k 0).val :=
  rfl
theorem drop_val1 (h' : (⟨6, ![B, g, n, g, n, C]⟩ : Shape).ReducesTo [2, 4] ⟨4, ![B, g, g, C]⟩)
    (k : (⟨6, ![B, g, n, g, n, C]⟩ : Shape).Idx) : ((h'.drop k) 1).val = (k 1).val :=
  rfl
theorem drop_val2 (h' : (⟨6, ![B, g, n, g, n, C]⟩ : Shape).ReducesTo [2, 4] ⟨4, ![B, g, g, C]⟩)
    (k : (⟨6, ![B, g, n, g, n, C]⟩ : Shape).Idx) : ((h'.drop k) 2).val = (k 3).val :=
  rfl
theorem drop_val3 (h' : (⟨6, ![B, g, n, g, n, C]⟩ : Shape).ReducesTo [2, 4] ⟨4, ![B, g, g, C]⟩)
    (k : (⟨6, ![B, g, n, g, n, C]⟩ : Shape).Idx) : ((h'.drop k) 3).val = (k 5).val :=
  rfl

/-- The entry `(b, i, h, j, w, c)` drops to `(b, i, j, c)`. -/
theorem drop_ix6 (h' : (⟨6, ![B, g, n, g, n, C]⟩ : Shape).ReducesTo [2, 4] ⟨4, ![B, g, g, C]⟩)
    (b : Fin B) (i j : Fin g) (h w : Fin n) (c : Fin C) : h'.drop (ix6 b i h j w c) = ix4 b i j c := by
  funext a
  apply Fin.ext
  match a with
  | ⟨0, _⟩ => exact drop_val0 h' _
  | ⟨1, _⟩ => exact drop_val1 h' _
  | ⟨2, _⟩ => exact drop_val2 h' _
  | ⟨3, _⟩ => exact drop_val3 h' _

/-- An index that drops to `(b, i, j, c)` is the entry `(b, i, h, j, w, c)` at its own window coordinates. -/
theorem eq_ix6_of_drop (h' : (⟨6, ![B, g, n, g, n, C]⟩ : Shape).ReducesTo [2, 4] ⟨4, ![B, g, g, C]⟩)
    (b : Fin B) (i j : Fin g) (c : Fin C) (k : (⟨6, ![B, g, n, g, n, C]⟩ : Shape).Idx)
    (hk : h'.drop k = ix4 b i j c) : ix6 b i (k 2 : Fin n) j (k 4 : Fin n) c = k := by
  funext a
  apply Fin.ext
  match a with
  | ⟨0, _⟩ => exact ((drop_val0 h' k).symm.trans (congrArg Fin.val (congrFun hk 0))).symm
  | ⟨1, _⟩ => exact ((drop_val1 h' k).symm.trans (congrArg Fin.val (congrFun hk 1))).symm
  | ⟨2, _⟩ => rfl
  | ⟨3, _⟩ => exact ((drop_val2 h' k).symm.trans (congrArg Fin.val (congrFun hk 2))).symm
  | ⟨4, _⟩ => rfl
  | ⟨5, _⟩ => exact ((drop_val3 h' k).symm.trans (congrArg Fin.val (congrFun hk 3))).symm

/-- The host's sum over the two window coordinates, at `(b, i, j, c)`: the initial value plus the window's sum. -/
theorem hostReduceAdd_windows (h' : (⟨6, ![B, g, n, g, n, C]⟩ : Shape).ReducesTo [2, 4] ⟨4, ![B, g, g, C]⟩)
    (X : (⟨6, ![B, g, n, g, n, C]⟩ : Shape).Idx → EReal) (init : EReal) (b : Fin B) (i j : Fin g) (c : Fin C) :
    Ideal.hostReduceAdd h' X init (ix4 b i j c) = init + ∑ h : Fin n, ∑ w : Fin n, X (ix6 b i h j w c) := by
  unfold Ideal.hostReduceAdd
  refine congrArg (fun t => init + t) ?_
  refine Eq.trans ?_ (Fintype.sum_prod_type (fun p : Fin n × Fin n => X (ix6 b i p.1 j p.2 c)))
  refine Finset.sum_nbij' (fun k => ((k 2 : Fin n), (k 4 : Fin n))) (fun p => ix6 b i p.1 j p.2 c) ?_ ?_ ?_ ?_ ?_
  · intro k _; exact Finset.mem_univ _
  · intro p _; exact Finset.mem_filter.2 ⟨Finset.mem_univ _, drop_ix6 h' b i j p.1 p.2 c⟩
  · intro k hk; exact eq_ix6_of_drop h' b i j c k (Finset.mem_filter.1 hk).2
  · intro p _; rfl
  · intro k hk; exact congrArg X (eq_ix6_of_drop h' b i j c k (Finset.mem_filter.1 hk).2).symm

end Cert.LibHostWindowSum

end
-- ==== Proof.RefRead.lean ====
/-
  The reference's result is the pooled array.

  The reference computes each level `s ∈ {1, 2, 4}` by viewing the image as an `s × s` grid of `n × n` windows
  (`n = 64 / s`: the array `[32, s, n, s, n, 512]`, whose entry `(b, i, h, j, w, c)` is the image's entry
  `(b, i·n + h, j·n + w, c)` — same row-major position), summing over the two coordinates inside the window, and
  dividing by the window's size `n²`.  Each level is then flattened to `[32, s²·512]` — window `(i, j)`, channel `c` at
  lane `(i·s + j)·512 + c` —, the three are laid side by side, and two unit axes are added.  Read at `(b, 0, 0, l)` this
  is the mean of the window and channel that lane `l` names: the pooled value.
-/
import proofs.«143913_j50457275793429_2_alg».proof.Proof.Gen.ReferenceIdeal.Read
import proofs.«143913_j50457275793429_2_alg».proof.Proof.Pyramid
import proofs.«143913_j50457275793429_2_alg».proof.Proof.Consts
import proofs.«143913_j50457275793429_2_alg».proof.Proof.LibHostWindowSum
import Idealize.ShloMosaic.Lib.IdealHost
import Idealize.ShloMosaic.Lib.ValueIdxRank6
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x : (⟨S32x64x64x512, .f32⟩ : BufTy).Contents (Elt Ideal))

/-! ## One level: the mean of a window -/

/-- Level 1: the whole image's mean. -/
theorem mean1 (b : Fin 32) (i j : Fin 1) (c : Fin 512) :
    val_main_v3 (F := Ideal) x (ix4 b i j c)
      = Cert.Pyramid.win (Cert.Pyramid.entry x b) 64 i.val j.val c.val * ((1 / 4096 : ℝ) : EReal) := by
  rw [val_main_v3_apply, val_main_v2_apply, val_main_cst_0_apply]
  show Ideal.div (Ideal.hostReduceAdd reducesTo_S32x1x64x1x64x512_S32x1x1x512_d2_4 (val_main_v0 (F := Ideal) x)
      (Ideal.ofBits .f32 0x00000000#32) (ix4 b i j c)) (Ideal.ofBits .f32 0x45800000#32) = _
  rw [Cert.LibHostWindowSum.hostReduceAdd_windows, Cert.Consts.mean4096]
  refine congrArg (fun t => t * _) ?_
  unfold Cert.Pyramid.win
  refine Finset.sum_congr rfl fun h _ => Finset.sum_congr rfl fun w _ => ?_
  have hi := i.isLt; have hj := j.isLt; have hh := h.isLt; have hw := w.isLt
  rw [Cert.Pyramid.entry_eq x b _ _ _ (by omega) (by omega) c.isLt]
  unfold val_main_v0
  refine shapeCast_apply x _ _ _ ?_
  rw [Shape.rowMajor_val_four, Shape.rowMajor_val_six]
  show ((b.val * 64 + (i.val * 64 + h.val)) * 64 + (j.val * 64 + w.val)) * 512 + c.val
    = ((((b.val * 1 + i.val) * 64 + h.val) * 1 + j.val) * 64 + w.val) * 512 + c.val
  omega

/-- Level 2: the mean of a window of side 32. -/
theorem mean2 (b : Fin 32) (i j : Fin 2) (c : Fin 512) :
    val_main_v8 (F := Ideal) x (ix4 b i j c)
      = Cert.Pyramid.win (Cert.Pyramid.entry x b) 32 i.val j.val c.val * ((1 / 1024 : ℝ) : EReal) := by
  rw [val_main_v8_apply, val_main_v7_apply, val_main_cst_2_apply]
  show Ideal.div (Ideal.hostReduceAdd reducesTo_S32x2x32x2x32x512_S32x2x2x512_d2_4 (val_main_v5 (F := Ideal) x)
      (Ideal.ofBits .f32 0x00000000#32) (ix4 b i j c)) (Ideal.ofBits .f32 0x44800000#32) = _
  rw [Cert.LibHostWindowSum.hostReduceAdd_windows, Cert.Consts.mean1024]
  refine congrArg (fun t => t * _) ?_
  unfold Cert.Pyramid.win
  refine Finset.sum_congr rfl fun h _ => Finset.sum_congr rfl fun w _ => ?_
  have hi := i.isLt; have hj := j.isLt; have hh := h.isLt; have hw := w.isLt
  rw [Cert.Pyramid.entry_eq x b _ _ _ (by omega) (by omega) c.isLt]
  unfold val_main_v5
  refine shapeCast_apply x _ _ _ ?_
  rw [Shape.rowMajor_val_four, Shape.rowMajor_val_six]
  show ((b.val * 64 + (i.val * 32 + h.val)) * 64 + (j.val * 32 + w.val)) * 512 + c.val
    = ((((b.val * 2 + i.val) * 32 + h.val) * 2 + j.val) * 32 + w.val) * 512 + c.val
  omega

/-- Level 4: the mean of a window of side 16. -/
theorem mean4 (b : Fin 32) (i j : Fin 4) (c : Fin 512) :
    val_main_v13 (F := Ideal) x (ix4 b i j c)
      = Cert.Pyramid.win (Cert.Pyramid.entry x b) 16 i.val j.val c.val * ((1 / 256 : ℝ) : EReal) := by
  rw [val_main_v13_apply, val_main_v12_apply, val_main_cst_4_apply]
  show Ideal.div (Ideal.hostReduceAdd reducesTo_S32x4x16x4x16x512_S32x4x4x512_d2_4 (val_main_v10 (F := Ideal) x)
      (Ideal.ofBits .f32 0x00000000#32) (ix4 b i j c)) (Ideal.ofBits .f32 0x43800000#32) = _
  rw [Cert.LibHostWindowSum.hostReduceAdd_windows, Cert.Consts.mean256]
  refine congrArg (fun t => t * _) ?_
  unfold Cert.Pyramid.win
  refine Finset.sum_congr rfl fun h _ => Finset.sum_congr rfl fun w _ => ?_
  have hi := i.isLt; have hj := j.isLt; have hh := h.isLt; have hw := w.isLt
  rw [Cert.Pyramid.entry_eq x b _ _ _ (by omega) (by omega) c.isLt]
  unfold val_main_v10
  refine shapeCast_apply x _ _ _ ?_
  rw [Shape.rowMajor_val_four, Shape.rowMajor_val_six]
  show ((b.val * 64 + (i.val * 16 + h.val)) * 64 + (j.val * 16 + w.val)) * 512 + c.val
    = ((((b.val * 4 + i.val) * 16 + h.val) * 4 + j.val) * 16 + w.val) * 512 + c.val
  omega

/-! ## A level flattened: window and channel from the lane -/

/-- Level 1 flattened: lane `l < 512` is channel `l`. -/
theorem flat1 (b : Fin 32) (l : ℕ) (h1 : l < 512) :
    val_main_v4 (F := Ideal) x (ix2 b (⟨l, h1⟩ : Fin 512))
      = Cert.Pyramid.win (Cert.Pyramid.entry x b) 64 0 0 l * ((1 / 4096 : ℝ) : EReal) := by
  rw [val_main_v4_apply]
  have hb := b.isLt
  have hi : idx_main_v4 (ix2 b (⟨l, h1⟩ : Fin 512)) = ix4 b (0 : Fin 1) (0 : Fin 1) (⟨l, h1⟩ : Fin 512) := by
    funext a
    apply Fin.ext
    match a with
    | ⟨0, _⟩ => show (b.val * 512 + l) / 512 = b.val; omega
    | ⟨1, _⟩ => rfl
    | ⟨2, _⟩ => rfl
    | ⟨3, _⟩ => show (b.val * 512 + l) % 512 = l; omega
  rw [hi]
  exact mean1 x b 0 0 ⟨l, h1⟩

/-- Level 2 flattened: lane `l' < 2048` is window `(l' / 1024, l' / 512 mod 2)`, channel `l' mod 512`. -/
theorem flat2 (b : Fin 32) (l : ℕ) (h1 : 512 ≤ l) (h2 : l < 2560) :
    val_main_v9 (F := Ideal) x (ix2 b (⟨l - 512, by omega⟩ : Fin 2048))
      = Cert.Pyramid.win (Cert.Pyramid.entry x b) 32 ((l - 512) / 1024) ((l - 512) / 512 % 2) (l % 512)
          * ((1 / 1024 : ℝ) : EReal) := by
  rw [val_main_v9_apply]
  have hb := b.isLt
  have hi : idx_main_v9 (ix2 b (⟨l - 512, by omega⟩ : Fin 2048))
      = ix4 b (⟨(l - 512) / 1024, by omega⟩ : Fin 2) (⟨(l - 512) / 512 % 2, by omega⟩ : Fin 2)
          (⟨l % 512, by omega⟩ : Fin 512) := by
    funext a
    apply Fin.ext
    match a with
    | ⟨0, _⟩ => show (b.val * 2048 + (l - 512)) / 2048 = b.val; omega
    | ⟨1, _⟩ => show (b.val * 2048 + (l - 512)) / 1024 % 2 = (l - 512) / 1024; omega
    | ⟨2, _⟩ => show (b.val * 2048 + (l - 512)) / 512 % 2 = (l - 512) / 512 % 2; omega
    | ⟨3, _⟩ => show (b.val * 2048 + (l - 512)) % 512 = l % 512; omega
  rw [hi]
  exact mean2 x b _ _ _

/-- Level 4 flattened: lane `l' < 8192` is window `(l' / 2048, l' / 512 mod 4)`, channel `l' mod 512`. -/
theorem flat4 (b : Fin 32) (l : ℕ) (h2 : 2560 ≤ l) (h3 : l < 10752) :
    val_main_v14 (F := Ideal) x (ix2 b (⟨l - 2560, by omega⟩ : Fin 8192))
      = Cert.Pyramid.win (Cert.Pyramid.entry x b) 16 ((l - 2560) / 2048) ((l - 2560) / 512 % 4) (l % 512)
          * ((1 / 256 : ℝ) : EReal) := by
  rw [val_main_v14_apply]
  have hb := b.isLt
  have hi : idx_main_v14 (ix2 b (⟨l - 2560, by omega⟩ : Fin 8192))
      = ix4 b (⟨(l - 2560) / 2048, by omega⟩ : Fin 4) (⟨(l - 2560) / 512 % 4, by omega⟩ : Fin 4)
          (⟨l % 512, by omega⟩ : Fin 512) := by
    funext a
    apply Fin.ext
    match a with
    | ⟨0, _⟩ => show (b.val * 8192 + (l - 2560)) / 8192 = b.val; omega
    | ⟨1, _⟩ => show (b.val * 8192 + (l - 2560)) / 2048 % 4 = (l - 2560) / 2048; omega
    | ⟨2, _⟩ => show (b.val * 8192 + (l - 2560)) / 512 % 4 = (l - 2560) / 512 % 4; omega
    | ⟨3, _⟩ => show (b.val * 8192 + (l - 2560)) % 512 = l % 512; omega
  rw [hi]
  exact mean4 x b _ _ _

/-! ## The three levels side by side -/

/-- The reference's result, index by index, is the pooled array. -/
theorem result_eq : val_main_v16 (F := Ideal) x = Cert.Pyramid.pyramid 32 x := by
  funext y
  obtain ⟨b, u, v, l, rfl⟩ : ∃ (b : Fin 32) (u v : Fin 1) (l : Fin 10752), y = ix4 b u v l :=
    ⟨y 0, y 1, y 2, y 3, eq_ix4 y⟩
  rw [val_main_v16_apply, Cert.Pyramid.pyramid_apply]
  have hi : idx_main_v16 (ix4 b u v l) = ix2 b l := by
    funext a
    match a with
    | ⟨0, _⟩ => rfl
    | ⟨1, _⟩ => rfl
  rw [hi]
  have hl := l.isLt
  unfold val_main_v15 Cert.Pyramid.pyr
  by_cases h1 : l.val < 512
  · rw [if_pos h1]
    refine (concatenate_apply_piece (t := S32x10752) (1 : Fin 2)
      [⟨S32x512, val_main_v4 (F := Ideal) x⟩, ⟨S32x2048, val_main_v9 (F := Ideal) x⟩, ⟨S32x8192, val_main_v14 (F := Ideal) x⟩]
      concatenates_S32x512_S32x2048_S32x8192_S32x10752_d1 (ix2 b l) 0 (by show (0 : ℕ) < 3; omega) S32x512 (val_main_v4 (F := Ideal) x) rfl rfl
      0 rfl (ix2 b (⟨l.val, h1⟩ : Fin 512))
      (fun d hd => by match d with | ⟨0, _⟩ => rfl | ⟨1, _⟩ => exact absurd rfl hd)
      (by show 0 + l.val = l.val; omega)).trans ?_
    exact flat1 x b l.val h1
  · rw [if_neg h1]
    by_cases h2 : l.val < 2560
    · rw [if_pos h2]
      refine (concatenate_apply_piece (t := S32x10752) (1 : Fin 2)
        [⟨S32x512, val_main_v4 (F := Ideal) x⟩, ⟨S32x2048, val_main_v9 (F := Ideal) x⟩, ⟨S32x8192, val_main_v14 (F := Ideal) x⟩]
        concatenates_S32x512_S32x2048_S32x8192_S32x10752_d1 (ix2 b l) 1 (by show (1 : ℕ) < 3; omega) S32x2048 (val_main_v9 (F := Ideal) x) rfl rfl
        512 (by simp) (ix2 b (⟨l.val - 512, by omega⟩ : Fin 2048))
        (fun d hd => by match d with | ⟨0, _⟩ => rfl | ⟨1, _⟩ => exact absurd rfl hd)
        (by show 512 + (l.val - 512) = l.val; omega)).trans ?_
      exact flat2 x b l.val (by omega) h2
    · rw [if_neg h2]
      refine (concatenate_apply_piece (t := S32x10752) (1 : Fin 2)
        [⟨S32x512, val_main_v4 (F := Ideal) x⟩, ⟨S32x2048, val_main_v9 (F := Ideal) x⟩, ⟨S32x8192, val_main_v14 (F := Ideal) x⟩]
        concatenates_S32x512_S32x2048_S32x8192_S32x10752_d1 (ix2 b l) 2 (by show (2 : ℕ) < 3; omega) S32x8192 (val_main_v14 (F := Ideal) x) rfl rfl
        2560 (by simp) (ix2 b (⟨l.val - 2560, by omega⟩ : Fin 8192))
        (fun d hd => by match d with | ⟨0, _⟩ => rfl | ⟨1, _⟩ => exact absurd rfl hd)
        (by show 2560 + (l.val - 2560) = l.val; omega)).trans ?_
      exact flat4 x b l.val (by omega) hl

end Cert.ReferenceIdeal.RefValue

end
-- ==== Proof.lean ====
/-
  Spatial pyramid pooling, kernel against reference, over the extended reals.

  Both programs take an image array `x : [32, 64, 64, 512]` (batch, row, column, channel) and return
  `[32, 1, 1, 10752]`: for each batch entry, the means of the image over the windows of a 1 × 1, a 2 × 2 and a 4 × 4 grid,
  channel by channel, laid side by side (Proof/Pyramid.lean states that array as one function, `pyramid`).

  The reference computes each level directly: it views the image as a grid of windows, sums over the two coordinates
  inside a window and divides by the window's size (Proof/RefRead.lean).  The kernel computes only the sums over the
  sixteen 16 × 16 windows of the finest grid, two batch entries per grid point, and builds the coarser levels from them:
  a window of side 32 is four of them, the whole image all sixteen; it multiplies by the reciprocal of the size
  (Proof/BlockSums.lean, Proof/Pieces.lean, Proof/Blocks.lean).  The two agree because a finite sum may be regrouped —
  commutativity and associativity of `+`, which hold at infinite entries too — and because the sizes 4096, 1024 and 256
  are powers of two: their reciprocals are exact in the float format, and dividing by `n` is multiplying by `1/n` on
  every extended real.  No step uses that the inputs are finite.

  The three frames: the two kernel programs' are the generated frame certificates; the reference's is its generated run
  with the result forgotten.  The idealized kernel is the kernel's own text read over the extended reals (no operation
  was rewritten), so there is nothing to preserve.
-/
import proofs.«143913_j50457275793429_2_alg».proof.Defs
import proofs.«143913_j50457275793429_2_alg».proof.Proof.Gen.Kernel
import proofs.«143913_j50457275793429_2_alg».proof.Proof.Gen.Kernel.Skeleton
import proofs.«143913_j50457275793429_2_alg».proof.Proof.Gen.Kernel.Launch
import proofs.«143913_j50457275793429_2_alg».proof.Proof.Gen.Kernel.Points
import proofs.«143913_j50457275793429_2_alg».proof.Proof.Gen.Kernel.Frame
import proofs.«143913_j50457275793429_2_alg».proof.Proof.Gen.KernelIdeal
import proofs.«143913_j50457275793429_2_alg».proof.Proof.Gen.KernelIdeal.Skeleton
import proofs.«143913_j50457275793429_2_alg».proof.Proof.Gen.KernelIdeal.Launch
import proofs.«143913_j50457275793429_2_alg».proof.Proof.Gen.KernelIdeal.Points
import proofs.«143913_j50457275793429_2_alg».proof.Proof.Gen.KernelIdeal.Frame
import proofs.«143913_j50457275793429_2_alg».proof.Proof.Gen.ReferenceIdeal
import proofs.«143913_j50457275793429_2_alg».proof.Proof.Gen.Pre_finite_inputs
import proofs.«143913_j50457275793429_2_alg».proof.Proof.Gen.KernelIdeal.Value
import proofs.«143913_j50457275793429_2_alg».proof.Proof.Gen.ReferenceIdeal.Run
import proofs.«143913_j50457275793429_2_alg».proof.Proof.Gen.ReferenceIdeal.Read
import proofs.«143913_j50457275793429_2_alg».proof.Proof.Blocks
import proofs.«143913_j50457275793429_2_alg».proof.Proof.RefRead
import Idealize.ShloMosaic.Adequacy
import Idealize.ShloMosaic.Init

noncomputable section

namespace Cert.Proof

open Idealize.ShloMosaic Idealize.SL.Sem

/-- The kernel's program runs, and leaves its argument as it was. -/
theorem frame_kernel : Cert.frame_Kernel := fun m ρ _ => Cert.Kernel.Gen.frame m ρ

/-- So does the kernel's program read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's text was not rewritten: nothing to preserve. -/
theorem preserves : Cert.preserves_Kernel_KernelIdeal := trivial

/-- From memories that agree on the image array, the kernel ends with its result at the pooled array of the image, and
    the reference ends with its result at the same array. -/
theorem algebraic : Cert.algebraic_KernelIdeal_ReferenceIdeal := by
  intro m ρ m' ρ' _ hagree
  refine ⟨fun c => Cert.Pyramid.pyramid 32
      (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _).trans ((Cert.ReferenceIdeal.RefValue.result_eq _).trans ?_)
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
